-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S16384 : Shape := ⟨1, ![16384]⟩
abbrev S100000x64 : Shape := ⟨2, ![100000, 64]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S8 .f32) (main_v33 : IVec S_ 1) : IVec S_ 1 :=
  let main_v34 : FVec F S8 .f32 := Host.absf main_arg9
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg6 : FVec F S64 .f32) (main_arg7 : FVec F S64x8 .f32) (main_arg8 : FVec F S64x8 .f32) (main_arg9 : FVec F S8 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x8 .f32 := Host.absf main_arg7
  let main_cst_8 : FVec F S_ .f32 := constant S_ .f32 0x7F800000#32
  let main_v25 : FVec F S64x8 .f32 := broadcastInDim S64x8 ![] bcast_S_S64x8 main_cst_8
  let main_v26 : IVec S64x8 1 := cmpf .olt main_v24 main_v25
  let main_c_9 : IVec S_ 1 := constantI S_ 1 1#1
  let main_v27 : IVec S_ 1 := (fun x v => Host.reduce IntOp.andi x v reducesTo_S64x8_S_d0_1 h_S_) main_v26 main_c_9
  let main_v28 : IVec S_ 1 := andi main_v23 main_v27
  let main_v29 : FVec F S64x8 .f32 := Host.absf main_arg8
  let main_cst_10 : FVec F S_ .f32 := constant S_ .f32 0x7F800000#32
  let main_v30 : FVec F S64x8 .f32 := broadcastInDim S64x8 ![] bcast_S_S64x8 main_cst_10
  let main_v31 : IVec S64x8 1 := cmpf .olt main_v29 main_v30
  let main_c_11 : IVec S_ 1 := constantI S_ 1 1#1
  let main_v32 : IVec S_ 1 := (fun x v => Host.reduce IntOp.andi x v reducesTo_S64x8_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S2x1600000 32) (main_arg2 : IVec S16384 32) (main_arg3 : FVec F S100000x64 .f32) (main_arg4 : FVec F S128x64 .f32) (main_arg5 : FVec F S128x64 .f32) (main_arg6 : FVec F S64 .f32) (main_arg7 : FVec F S64x8 .f32) (main_arg8 : FVec F S64x8 .f32) (main_arg9 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_v13 main_v16
-- ==== Kernel.lean ====
abbrev S100000x128 : Shape := ⟨2, ![100000, 128]⟩
abbrev S2x1600000 : Shape := ⟨2, ![2, 1600000]⟩
abbrev S16384 : Shape := ⟨1, ![16384]⟩
abbrev S100000x64 : Shape := ⟨2, ![100000, 64]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x64 : Shape := ⟨2, ![1, 64]⟩
abbrev S5000x128 : Shape := ⟨2, ![5000, 128]⟩
abbrev S5000x64 : Shape := ⟨2, ![5000, 64]⟩
abbrev S1600000x64 : Shape := ⟨2, ![1600000, 64]⟩
abbrev S1x8 : Shape := ⟨2, ![1, 8]⟩
abbrev S100000x8 : Shape := ⟨2, ![100000, 8]⟩
abbrev S10000x64 : Shape := ⟨2, ![10000, 64]⟩
abbrev S10000x8 : Shape := ⟨2, ![10000, 8]⟩
abbrev S16384x1 : Shape := ⟨2, ![16384, 1]⟩
abbrev S16384x8 : Shape := ⟨2, ![16384, 8]⟩

abbrev nBuf : Space → Nat
  | .hbm => 71
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S16384, .i32⟩
  | .hbm, ⟨3, _⟩ => ⟨S100000x64, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S64x8, .f32⟩
  | .hbm, ⟨8, _⟩ => ⟨S64x8, .f32⟩
  | .hbm, ⟨9, _⟩ => ⟨S8, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S1x8, .f32⟩
  | .hbm, ⟨61, _⟩ => ⟨S100000x8, .f32⟩
  | .hbm, ⟨62, _⟩ => ⟨S_, .i32⟩
  | .hbm, ⟨63, _⟩ => ⟨S16384, .i32⟩
  | .hbm, ⟨64, _⟩ => ⟨S16384, .i1⟩
  | .hbm, ⟨65, _⟩ => ⟨S_, .i32⟩
  | .hbm, ⟨66, _⟩ => ⟨S16384, .i32⟩
  | .hbm, ⟨67, _⟩ => ⟨S16384, .i32⟩
  | .hbm, ⟨68, _⟩ => ⟨S16384, .i32⟩
  | .hbm, ⟨69, _⟩ => ⟨S16384x1, .i32⟩
  | .hbm, ⟨70, _⟩ => ⟨S16384x8, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S64x8, .f32⟩
  | .local _ .vmem, ⟨16, _⟩ => ⟨S64x8, .f32⟩
  | .local _ .vmem, ⟨17, _⟩ => ⟨S1x8, .f32⟩
  | .local _ .vmem, ⟨18, _⟩ => ⟨S10000x8, .f32⟩
  | .local _ .vmem, ⟨19, _⟩ => ⟨S10000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  natLt_1_32 : 1 < 32
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S8_S1x8 : S8.ShapeCasts S1x8
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  bcast_S_S16384 : S_.BroadcastsInDim S16384 (![] : Fin 0 → Fin S16384.rank)
  bcast_S16384_S16384x1_0 : S16384.BroadcastsInDim S16384x1 (![0] : Fin 1 → Fin S16384x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x8_S10000x8_1_0_0_1_n_n_wf : DotDims.WF S10000x64 S64x8 S10000x8 [1] [0] [0] [1] [] []
  gather_S100000x8_S16384x1_S16384x8_1_0_n_n_0_1_18_wf : GatherDims.WF S100000x8 S16384x1 S16384x8 [1] [0] [] [0] [] 1 ![1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x8.size a ≤ S64x8.size a
  hwx1_2 : ∀ i : grid1.Coords, EltTy.bits .f32 = 32 ∨ (Rect.block (s := S64x8) S64x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x8.size a ≤ S64x8.size a
  hwx1_3 : ∀ i : grid1.Coords, EltTy.bits .f32 = 32 ∨ (Rect.block (s := S64x8) S64x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x8.size a ≤ S100000x8.size a
  hwx1_5 : ∀ i : grid1.Coords, EltTy.bits .f32 = 32 ∨ (Rect.block (s := S100000x8) S10000x8.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x8_S10000x8_1_0_0_1_n_n : DotDims S10000x64 S64x8 S10000x8 where
  lhsContracting := [1]
  rhsContracting := [0]
  lhsNonContracting := [0]
  rhsNonContracting := [1]
  lhsBatch := []
  rhsBatch := []
  wf := dot_S10000x64_S64x8_S10000x8_1_0_0_1_n_n_wf
def gather_S100000x8_S16384x1_S16384x8_1_0_n_n_0_1_18 : GatherDims S100000x8 S16384x1 S16384x8 where
  offsetDims := [1]
  collapsedSliceDims := [0]
  operandBatchingDims := []
  startIndicesBatchingDims := []
  startIndexMap := [0]
  indexVectorDim := 1
  sliceSizes := ![1, 8]
  wf := gather_S100000x8_S16384x1_S16384x8_1_0_n_n_0_1_18_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S5000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S16384 : Shape := ⟨1, ![16384]⟩
abbrev S100000x64 : Shape := ⟨2, ![100000, 64]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x64 : Shape := ⟨2, ![1, 64]⟩
abbrev S1600000x64 : Shape := ⟨2, ![1600000, 64]⟩
abbrev S100000x8 : Shape := ⟨2, ![100000, 8]⟩
abbrev S1x8 : Shape := ⟨2, ![1, 8]⟩
abbrev S16384x1 : Shape := ⟨2, ![16384, 1]⟩
abbrev S16384x8 : Shape := ⟨2, ![16384, 8]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S16384, .i32⟩
  | .hbm, ⟨3, _⟩ => ⟨S100000x64, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S64x8, .f32⟩
  | .hbm, ⟨8, _⟩ => ⟨S64x8, .f32⟩
  | .hbm, ⟨9, _⟩ => ⟨S8, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .i1⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x64, .f32⟩
  | .hbm, ⟨80, _⟩ => ⟨S100000x64, .f32⟩
  | .hbm, ⟨81, _⟩ => ⟨S100000x8, .f32⟩
  | .hbm, ⟨82, _⟩ => ⟨S100000x8, .f32⟩
  | .hbm, ⟨83, _⟩ => ⟨S100000x8, .f32⟩
  | .hbm, ⟨84, _⟩ => ⟨S1x8, .f32⟩
  | .hbm, ⟨85, _⟩ => ⟨S100000x8, .f32⟩
  | .hbm, ⟨86, _⟩ => ⟨S100000x8, .f32⟩
  | .hbm, ⟨87, _⟩ => ⟨S_, .i32⟩
  | .hbm, ⟨88, _⟩ => ⟨S16384, .i32⟩
  | .hbm, ⟨89, _⟩ => ⟨S16384, .i1⟩
  | .hbm, ⟨90, _⟩ => ⟨S_, .i32⟩
  | .hbm, ⟨91, _⟩ => ⟨S16384, .i32⟩
  | .hbm, ⟨92, _⟩ => ⟨S16384, .i32⟩
  | .hbm, ⟨93, _⟩ => ⟨S16384, .i32⟩
  | .hbm, ⟨94, _⟩ => ⟨S16384x1, .i32⟩
  | .hbm, ⟨95, _⟩ => ⟨S16384x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S16384 : S_.BroadcastsInDim S16384 (![] : Fin 0 → Fin S16384.rank)
  bcast_S16384_S16384x1_0 : S16384.BroadcastsInDim S16384x1 (![0] : Fin 1 → Fin S16384x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x8_S100000x8_1_0_0_1_n_n_wf : DotDims.WF S100000x64 S64x8 S100000x8 [1] [0] [0] [1] [] []
  gather_S100000x8_S16384x1_S16384x8_1_0_n_n_0_1_18_wf : GatherDims.WF S100000x8 S16384x1 S16384x8 [1] [0] [] [0] [] 1 ![1, 8]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S16384x1_S16384x8_1_0_n_n_0_1_18 : GatherDims S100000x8 S16384x1 S16384x8 where
  offsetDims := [1]
  collapsedSliceDims := [0]
  operandBatchingDims := []
  startIndicesBatchingDims := []
  startIndexMap := [0]
  indexVectorDim := 1
  sliceSizes := ![1, 8]
  wf := gather_S100000x8_S16384x1_S16384x8_1_0_n_n_0_1_18_wf

class Facts : Prop extends Facts₀ where

variable [Facts]
-- ==== Proof.KernelRun.lean ====
/-
  The idealized kernel program's run, with its result named.

  The program is five segments: host operations, the first dense layer's grid of row blocks, host
  operations, the second dense layer's grid, and a final host gather. The imported frame module describes
  the buffer contents at each segment boundary as a fold `W0 … W5` from the launch memory. Here the run is
  stated with the post "the result buffer holds `W5` at its reference, and every argument is unchanged":
  the last thread state holds every unscoped buffer at `W5`, and the result buffer is one of them.
-/
import proofs.«148262_j69277822484549_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the
    last boundary's contents `W5`, and the ten argument arrays end as launched. -/
theorem run_value : θ_run defs (onTc (τ := τ) (main (F := F))) ⟨m, fun _ => 0, ρ⟩ (fun r => ∀ c : Dev nD,
      r.2.mem ((c.tc : Thread nD τ).loc main_v48) = W5 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v48 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.RunValue

end
-- ==== Proof.Stages.lean ====
/-
  The host operations of the kernel program, read as values.

  Around the two dense layers the kernel program runs the same graph aggregation as the reference: gather
  the rows of the source nodes, add them into the rows of the destination nodes, and scale row `r` by
  `1 / max(deg r, 1)`, where `deg r` counts the edges into node `r`; at the end it looks rows up by an index
  list. Each stretch of host operations is read here from ANY buffer contents `W` at its entry. The results
  are written with the reference's own stage functions wherever the two programs apply the very same index
  arithmetic, gathers and scatter-adds to the same operands: only the place of the division differs.
-/
import proofs.«148262_j69277822484549_1_alg».proof.Proof.Gen.KernelIdeal.Frame
import proofs.«148262_j69277822484549_1_alg».proof.Proof.Gen.ReferenceIdeal.Read
import Idealize.ShloMosaic.Lib.StableHlo.Run

set_option maxRecDepth 16384

noncomputable section

namespace Cert.Bridge

open Idealize.ShloMosaic Idealize.ShloMosaic.TcCoe Idealize.SL.Sem

section Stages
open Cert.ReferenceIdeal Cert.ReferenceIdeal.Gen Cert.ReferenceIdeal.Read

/-- The all-ones vector over the nodes. -/
def ones : FVec Ideal S100000 .f32 :=
  broadcastInDim S100000 ![] bcast_S_S100000 (constant (F := Ideal) S_ .f32 0x3F800000#32)

/-- `max(deg, 1)` per node, from the edge list. -/
def degMax (e : IVec S2x1600000 32) : FVec Ideal S100000 .f32 := val_main_v19 (F := Ideal) e

/-- The kernel program's row scale `1 / max(deg, 1)`. -/
def recipDeg (e : IVec S2x1600000 32) : FVec Ideal S100000 .f32 := Host.divf (F := Ideal) ones (degMax e)

/-- A per-node scalar spread over the 128 feature columns. -/
def rows128 (r : FVec Ideal S100000 .f32) : FVec Ideal S100000x128 .f32 :=
  broadcastInDim S100000x128 ![0, 1] bcast_S100000x1_S100000x128_0_1 (broadcastInDim S100000x1 ![0] bcast_S100000_S100000x1_0 r)

/-- A per-node scalar spread over the 64 hidden columns. -/
def rows64 (r : FVec Ideal S100000 .f32) : FVec Ideal S100000x64 .f32 :=
  broadcastInDim S100000x64 ![0, 1] bcast_S100000x1_S100000x64_0_1 (broadcastInDim S100000x1 ![0] bcast_S100000_S100000x1_0 r)

/-- The first layer's neighbourhood sum of the features. -/
def agg1 (x : FVec Ideal S100000x128 .f32) (e : IVec S2x1600000 32) : FVec Ideal S100000x128 .f32 := val_main_v13 (F := Ideal) x e

/-- Source node of each edge, a negative index wrapped once, as a column of start indices. -/
def srcCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The second layer's neighbourhood sum of the hidden rows `h`, over source nodes `s` and destination nodes `d`. -/
def agg2 (h : FVec Ideal S100000x64 .f32) (s d : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 h (srcCol s))

/-- The final row lookup: rows of `emb` at the index list, a negative index wrapped once. -/
def lookup (emb : FVec Ideal S100000x8 .f32) (ix : IVec S16384 32) : FVec Ideal S16384x8 .f32 :=
  Host.gather gather_S100000x8_S16384x1_S16384x8_1_0_n_n_0_1_18 emb (val_main_v66 (F := Ideal) ix)

/-- A bias vector as a one-row matrix (64 columns). -/
def biasRow64 (b : FVec Ideal S64 .f32) : FVec Ideal S1x64 .f32 := shapeCast S1x64 b (by decide)
/-- A bias vector as a one-row matrix (8 columns). -/
def biasRow8 (b : FVec Ideal S8 .f32) : FVec Ideal S1x8 .f32 := shapeCast S1x8 b (by decide)

end Stages

section Reads
open Cert.KernelIdeal Cert.KernelIdeal.Gen Idealize.ShloMosaic.StableHlo

variable (W : Valuation τ sig (Elt Ideal))

/-- First stretch: the first layer's scaled neighbourhood sum. -/
theorem head_mean : (StableHlo.after (hostOps0 (F := Ideal)) W (Proc.devRef .tc main_v24) : FVec Ideal S100000x128 .f32)
    = mulf (agg1 (W (Proc.devRef .tc main_arg0)) (W (Proc.devRef .tc main_arg1))) (rows128 (recipDeg (W (Proc.devRef .tc main_arg1)))) := by
  after_results_simp
  rfl

/-- First stretch: the first bias as a one-row matrix. -/
theorem head_bias : (StableHlo.after (hostOps0 (F := Ideal)) W (Proc.devRef .tc main_v25) : FVec Ideal S1x64 .f32)
    = biasRow64 (W (Proc.devRef .tc main_arg6)) := by
  after_results_simp
  rfl

/-- First stretch: the source nodes. -/
theorem head_src : (StableHlo.after (hostOps0 (F := Ideal)) W (Proc.devRef .tc main_v1) : IVec S1600000 32)
    = Cert.ReferenceIdeal.Read.val_main_v1 (F := Ideal) (W (Proc.devRef .tc main_arg1)) := by
  after_results_simp
  rfl

/-- First stretch: the destination nodes. -/
theorem head_dst : (StableHlo.after (hostOps0 (F := Ideal)) W (Proc.devRef .tc main_v3) : IVec S1600000 32)
    = Cert.ReferenceIdeal.Read.val_main_v3 (F := Ideal) (W (Proc.devRef .tc main_arg1)) := by
  after_results_simp
  rfl

/-- First stretch: the row scale. -/
theorem head_recip : (StableHlo.after (hostOps0 (F := Ideal)) W (Proc.devRef .tc main_v11) : FVec Ideal S100000 .f32)
    = recipDeg (W (Proc.devRef .tc main_arg1)) := by
  after_results_simp
  rfl

/-- Second stretch: the second layer's scaled neighbourhood sum. -/
theorem mid_mean : (StableHlo.after (hostOps1 (F := Ideal)) W (Proc.devRef .tc main_v39) : FVec Ideal S100000x64 .f32)
    = mulf (agg2 (W (Proc.devRef .tc main_v26)) (W (Proc.devRef .tc main_v1)) (W (Proc.devRef .tc main_v3))) (rows64 (W (Proc.devRef .tc main_v11))) := by
  after_results_simp
  rfl

/-- Second stretch: the second bias as a one-row matrix. -/
theorem mid_bias : (StableHlo.after (hostOps1 (F := Ideal)) W (Proc.devRef .tc main_v40) : FVec Ideal S1x8 .f32)
    = biasRow8 (W (Proc.devRef .tc main_arg9)) := by
  after_results
  rfl

/-- Last stretch: the row lookup. -/
theorem tail_lookup : (StableHlo.after (hostOps2 (F := Ideal)) W (Proc.devRef .tc main_v48) : FVec Ideal S16384x8 .f32)
    = lookup (W (Proc.devRef .tc main_v41)) (W (Proc.devRef .tc main_arg2)) := by
  after_results
  rfl

end Reads

end Cert.Bridge

end
-- ==== Proof.Spec.lean ====
/-
  The mathematics both programs compute, stated once, index by index, over the extended reals.

  The network is two graph-convolution layers followed by a row lookup. Each layer maps the
  neighbourhood mean `mean` and the node features `x` to `mean · W_l + x · W_r + b`; the first layer then
  clamps at zero, multiplies by the keep indicator `[mask > 1/2]` and by `2`.
  `layer1` and `layer2` are those two maps on whole arrays: entry `(r, j)` depends on row `r` of `mean`
  and `x`, column `j` of the two weight matrices, entry `j` of the bias row and (first layer) entry
  `(r, j)` of the mask.  A matrix product is the plain sum over the contracted coordinate `k`.

  Also here: the one law that joins the two programs' means. One program multiplies the neighbourhood sum
  by the reciprocal `1 / max(deg, 1)`, the other divides it by `max(deg, 1)`. Since `max(deg, 1) ≥ 1` is
  never zero, both are the product with the extended-real inverse of `max(deg, 1)`, at the infinities too.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- Row coordinate of a rank-2 index, typed by the literal extent. -/
abbrev row {n0 n1 : Nat} (i : (⟨2, ![n0, n1]⟩ : Shape).Idx) : Fin n0 := ⟨(i 0).val, idx2_lt0 i⟩
/-- Column coordinate of a rank-2 index, typed by the literal extent. -/
abbrev col {n0 n1 : Nat} (i : (⟨2, ![n0, n1]⟩ : Shape).Idx) : Fin n1 := ⟨(i 1).val, idx2_lt1 i⟩

/-- The keep indicator of a mask entry: `1` where the entry exceeds one half, else `0` (the comparison bit
    read as an unsigned integer). -/
def keep (x : Ideal .f32) : Ideal .f32 :=
  FloatOps.uitofp (F := Ideal) .f32 (FloatOps.cmpf (F := Ideal) (φ := .f32) .ogt x (Ideal.ofBits .f32 0x3F000000#32))

/-- A one-bit word widened to 32 bits and read signed is the bit read unsigned: both are `0` or `1`. -/
theorem bit_signed_eq_unsigned (b : BitVec 1) :
    (((b.setWidth 32).toInt : ℝ) : EReal) = ((b.toNat : ℝ) : EReal) := by
  have h : (b.setWidth 32).toInt = (b.toNat : Int) := by
    rcases BitVec.eq_zero_or_eq_one b with rfl | rfl <;> decide
  rw [h, Int.cast_natCast]

/-- The first layer on whole arrays: `max(mean·W_l + x·W_r + b, 0) · keep(mask) · 2`. -/
def layer1 (mean x : FVec Ideal ⟨2, ![100000, 128]⟩ .f32) (wl wr : FVec Ideal ⟨2, ![128, 64]⟩ .f32)
    (b : FVec Ideal ⟨2, ![1, 64]⟩ .f32) (mask : FVec Ideal ⟨2, ![100000, 64]⟩ .f32) :
    FVec Ideal ⟨2, ![100000, 64]⟩ .f32 := fun i =>
  max ((∑ k : Fin 128, mean (ix2 (row i) k) * wl (ix2 k (col i)))
        + (∑ k : Fin 128, x (ix2 (row i) k) * wr (ix2 k (col i)))
        + b (ix2 (0 : Fin 1) (col i))) (Ideal.ofBits .f32 0x00000000#32)
    * keep (mask i) * Ideal.ofBits .f32 0x40000000#32

/-- The second layer on whole arrays: `mean·W_l + h·W_r + b`. -/
def layer2 (mean h : FVec Ideal ⟨2, ![100000, 64]⟩ .f32) (wl wr : FVec Ideal ⟨2, ![64, 8]⟩ .f32)
    (b : FVec Ideal ⟨2, ![1, 8]⟩ .f32) : FVec Ideal ⟨2, ![100000, 8]⟩ .f32 := fun i =>
  (∑ k : Fin 64, mean (ix2 (row i) k) * wl (ix2 k (col i)))
    + (∑ k : Fin 64, h (ix2 (row i) k) * wr (ix2 k (col i)))
    + b (ix2 (0 : Fin 1) (col i))

/-- The float pattern of `1.0` denotes the real `1`. -/
theorem ofBits_one : Ideal.ofBits .f32 0x3F800000#32 = 1 := by
  simp [Ideal.ofBits, Ideal.ieee, -EReal.coe_mul]; norm_num

/-- Multiplying by the reciprocal of `max(u, 1)` is dividing by it, for every extended real `a` and `u`:
    `max(u, 1) ≥ 1` is not zero, so both sides are `a · (max(u, 1))⁻¹`. -/
theorem mul_recip_eq_div (a u : EReal) :
    a * Ideal.div (Ideal.ofBits .f32 0x3F800000#32) (max u (Ideal.ofBits .f32 0x3F800000#32))
      = Ideal.div a (max u (Ideal.ofBits .f32 0x3F800000#32)) := by
  rw [ofBits_one]
  have h : max u 1 ≠ 0 := (lt_of_lt_of_le zero_lt_one (le_max_right u 1)).ne'
  rw [Ideal.div, if_neg h, Ideal.div, if_neg h, one_mul]

end Cert.Sage

end
-- ==== Proof.Region0.lean ====
/-
  The first graph-convolution layer as the kernel's first pipelined region computes it.

  The region walks twenty grid points. At point `t` it stages rows `5000·t … 5000·t + 4999` of the
  neighbourhood mean, of the node features and of the mask, together with the two whole weight matrices and
  the bias row, and writes back the same rows of the result.  Three steps lead from there to the whole array:

  * on one staged block, the body's value at entry `(p, q)` is the layer's formula read on the block's
    row `p`: each matrix product is the plain sum over the contracted coordinate, the bias row is read at
    column `q`, the format changes do nothing over the extended reals, and the mask factor — the comparison
    bit widened to 32 bits and read signed — is the keep indicator;
  * entry `(p, q)` of the block staged at point `t` is entry `(5000·t + p, q)` of a moving array and entry
    `(p, q)` of a fixed one, so what point `t` writes back is block `t` of the layer applied to the whole arrays;
  * row `r` lies in the block of point `r / 5000`, so the twenty blocks cover the array, which therefore ends
    holding the layer's value everywhere, whatever the region found in its buffers.
-/
import proofs.«148262_j69277822484549_1_alg».proof.Proof.Gen.KernelIdeal.Frame
import proofs.«148262_j69277822484549_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## One block: the body's value at an entry -/

/-- The left operand of the kernel's matrix product is read on the output's row. -/
theorem lhs_row (i : S5000x64.Idx) (z : dot_S5000x128_S128x64_S5000x64_1_0_0_1_n_n.contr.Idx) :
    (dot_S5000x128_S128x64_S5000x64_1_0_0_1_n_n.lhsIdx i z 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- and on the contracted coordinate; -/
theorem lhs_contr (i : S5000x64.Idx) (z : dot_S5000x128_S128x64_S5000x64_1_0_0_1_n_n.contr.Idx) :
    (dot_S5000x128_S128x64_S5000x64_1_0_0_1_n_n.lhsIdx i z 1).val = (z ⟨0, by decide⟩).val :=
  dot_S5000x128_S128x64_S5000x64_1_0_0_1_n_n.lhsIdx_val_of_single rfl i z
/-- the right operand on the contracted coordinate -/
theorem rhs_contr (i : S5000x64.Idx) (z : dot_S5000x128_S128x64_S5000x64_1_0_0_1_n_n.contr.Idx) :
    (dot_S5000x128_S128x64_S5000x64_1_0_0_1_n_n.rhsIdx i z 0).val = (z ⟨0, by decide⟩).val :=
  dot_S5000x128_S128x64_S5000x64_1_0_0_1_n_n.rhsIdx_val_of_single rfl i z
/-- and on the output's column. -/
theorem rhs_col (i : S5000x64.Idx) (z : dot_S5000x128_S128x64_S5000x64_1_0_0_1_n_n.contr.Idx) :
    (dot_S5000x128_S128x64_S5000x64_1_0_0_1_n_n.rhsIdx i z 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The kernel's matrix product into the zero accumulator, read at entry `(p, q)`: the sum over the contracted
    coordinate `k` of row `p` of the left operand times column `q` of the right one. -/
theorem matmul_entry (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  show FloatOps.matmul _ _ a b _ _ = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The mask factor: the comparison bit widened to 32 bits and read as a signed integer is the keep indicator. -/
theorem mask_factor (m : Ideal .f32) :
    FloatOps.sitofp (F := Ideal) .f32 ((FloatOps.cmpf (F := Ideal) (φ := .f32) .ogt m (Ideal.ofBits .f32 0x3F000000#32)).setWidth 32)
      = Cert.Sage.keep m :=
  Cert.Sage.bit_signed_eq_unsigned _

/-- The body's value at entry `(p, q)` of a block: the layer's formula on row `p` of the staged rows of the mean
    and of the features, the whole weight matrices, the bias row and entry `(p, q)` of the staged mask rows. -/
theorem payload_entry (x0 x1 : Vec Ideal S5000x128 .f32) (x2 x3 : Vec Ideal S128x64 .f32) (x4 : Vec Ideal S1x64 .f32)
    (x5 : Vec Ideal S5000x64 .f32) (p : Fin 5000) (q : Fin 64) :
    k0_pay1 (F := Ideal) x0 x1 x2 x3 x4 x5 (ix2 p q)
      = max ((∑ k : Fin 128, x0 (ix2 p k) * x2 (ix2 k q)) + (∑ k : Fin 128, x1 (ix2 p k) * x3 (ix2 k q))
            + x4 (ix2 (0 : Fin 1) q)) (Ideal.ofBits .f32 0x00000000#32)
          * Cert.Sage.keep (x5 (ix2 p q)) * Ideal.ofBits .f32 0x40000000#32 := by
  unfold k0_pay1
  rw [mulf_apply, mulf_apply, maximumf_apply, addf_apply, addf_apply, matmul_entry, matmul_entry,
    broadcastTo_1b_ab_apply, shapeCast_self, shapeCast_self, sitofp_apply, extui_apply, cmpf_apply]
  simp only [truncf_apply, broadcast_apply]
  rw [← mask_factor]
  rfl

/-- On one block, over any arrays whose rows the block's operands are: if row `p` of the staged mean and feature rows
    is row `row i` of the arrays, column `q` of the staged weights and bias is column `col i` of theirs, and entry
    `(p, q)` of the staged mask rows is the mask's entry `i`, then the body's value at `(p, q)` is the layer's at `i`. -/
theorem block_entry_eq_layer (A0 A1 : FVec Ideal ⟨2, ![100000, 128]⟩ .f32) (A2 A3 : FVec Ideal ⟨2, ![128, 64]⟩ .f32)
    (A4 : FVec Ideal ⟨2, ![1, 64]⟩ .f32) (A5 : FVec Ideal ⟨2, ![100000, 64]⟩ .f32)
    (B0 B1 : Vec Ideal S5000x128 .f32) (B2 B3 : Vec Ideal S128x64 .f32) (B4 : Vec Ideal S1x64 .f32) (B5 : Vec Ideal S5000x64 .f32)
    (i : (⟨2, ![100000, 64]⟩ : Shape).Idx) (p : Fin 5000) (q : Fin 64)
    (h0 : ∀ k : Fin 128, B0 (ix2 p k) = A0 (ix2 (Cert.Sage.row i) k))
    (h1 : ∀ k : Fin 128, B1 (ix2 p k) = A1 (ix2 (Cert.Sage.row i) k))
    (h2 : ∀ k : Fin 128, B2 (ix2 k q) = A2 (ix2 k (Cert.Sage.col i)))
    (h3 : ∀ k : Fin 128, B3 (ix2 k q) = A3 (ix2 k (Cert.Sage.col i)))
    (h4 : B4 (ix2 (0 : Fin 1) q) = A4 (ix2 (0 : Fin 1) (Cert.Sage.col i)))
    (h5 : B5 (ix2 p q) = A5 i) :
    k0_pay1 (F := Ideal) B0 B1 B2 B3 B4 B5 (ix2 p q) = Cert.Sage.layer1 A0 A1 A2 A3 A4 A5 i := by
  rw [payload_entry]
  unfold Cert.Sage.layer1
  simp only [h0, h1, h2, h3, h4, h5]

/-! ## From a block to the arrays -/

section Arrays

variable (V : (c : Dev nD) → (b : Ref sig .tc) → Buf (Elt Ideal) ((c : Thread nD τ).loc b))

/-- The layer applied to the arrays as the region finds them. -/
abbrev layerAt (c : Dev nD) : FVec Ideal ⟨2, ![100000, 64]⟩ .f32 :=
  Cert.Sage.layer1 (V c main_v24) (V c main_arg0) (V c main_arg4) (V c main_arg5) (V c main_v25) (V c main_arg3)

theorem zero_offsets : (![0, 0] : Fin 2 → Nat) = fun _ => 0 := funext fun a => by fin_cases a <;> rfl

/-- The block indices at grid point `t`, decided over the twenty points: the windows on the mean, the features, the
    mask and the result are at block `(t, 0)`; the weight and bias windows stay at block `(0, 0)`. -/
theorem index_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0 :=
  (by decide +kernel : ∀ t : Fin grid0.N, _)

/-- The block of window 0 staged at point `t` is rows of the neighbourhood mean `5000·t …`: its entry `y` is the array's entry
    at row `5000·t + y₀` and column `y₁`. -/
theorem mean_block (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = V c main_v24 i := by
  obtain ⟨e0, e1, -, -, -, -, -, -, -, -, -, -, -, -⟩ := index_facts t
  unfold iblk0
  rw [View.read_apply]
  show V c main_v24 _ = V c main_v24 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The block of window 1 staged at point `t` is rows of the node features `5000·t …`: its entry `y` is the array's entry
    at row `5000·t + y₀` and column `y₁`. -/
theorem features_block (c : Dev nD) (t : Fin cfg0.N) (y : S5000x128.Idx) (i : S100000x128.Idx)
    (h0 : (i 0).val = t.val * 5000 + (y 0).val) (h1 : (i 1).val = (y 1).val) :
    (iblk0 V c 1 t : Vec Ideal S5000x128 .f32) y = V c main_arg0 i := by
  obtain ⟨-, -, e0, e1, -, -, -, -, -, -, -, -, -, -⟩ := index_facts t
  unfold iblk0
  rw [View.read_apply]
  show V c main_arg0 _ = V c main_arg0 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- The block of window 2 staged at point `t` is the whole weight matrix applied to the mean: its entry `y` is the array's entry
    at row `y₀` and column `y₁`. -/
theorem left_weights_block (c : Dev nD) (t : Fin cfg0.N) (y : S128x64.Idx) (i : S128x64.Idx)
    (h0 : (i 0).val = (y 0).val) (h1 : (i 1).val = (y 1).val) :
    (iblk0 V c 2 t : Vec Ideal S128x64 .f32) y = V c main_arg4 i := by
  obtain ⟨-, -, -, -, e0, e1, -, -, -, -, -, -, -, -⟩ := index_facts t
  unfold iblk0
  rw [View.read_apply]
  show V c main_arg4 _ = V c main_arg4 _
  congr 1
  funext a
  apply Fin.ext
  match a with
  | ⟨0, _⟩ => show win0_2.index t (0 : Fin 2) * 128 + 1 * (y 0).val = (i 0).val; rw [e0, h0]; omega
  | ⟨1, _⟩ => show win0_2.index t (1 : Fin 2) * 64 + 1 * (y 1).val = (i 1).val; rw [e1, h1]; omega

/-- The block of window 3 staged at point `t` is the whole weight matrix applied to the features: its entry `y` is the array's entry
    at row `y₀` and column `y₁`. -/
theorem right_weights_block (c : Dev nD) (t : Fin cfg0.N) (y : S128x64.Idx) (i : S128x64.Idx)
    (h0 : (i 0).val = (y 0).val) (h1 : (i 1).val = (y 1).val) :
    (iblk0 V c 3 t : Vec Ideal S128x64 .f32) y = V c main_arg5 i := by
  obtain ⟨-, -, -, -, -, -, e0, e1, -, -, -, -, -, -⟩ := index_facts t
  unfold iblk0
  rw [View.read_apply]
  show V c main_arg5 _ = V c main_arg5 _
  congr 1
  funext a
  apply Fin.ext
  match a with
  | ⟨0, _⟩ => show win0_3.index t (0 : Fin 2) * 128 + 1 * (y 0).val = (i 0).val; rw [e0, h0]; omega
  | ⟨1, _⟩ => show win0_3.index t (1 : Fin 2) * 64 + 1 * (y 1).val = (i 1).val; rw [e1, h1]; omega

/-- The block of window 4 staged at point `t` is the whole bias row: its entry `y` is the array's entry
    at row `y₀` and column `y₁`. -/
theorem bias_block (c : Dev nD) (t : Fin cfg0.N) (y : S1x64.Idx) (i : S1x64.Idx)
    (h0 : (i 0).val = (y 0).val) (h1 : (i 1).val = (y 1).val) :
    (iblk0 V c 4 t : Vec Ideal S1x64 .f32) y = V c main_v25 i := by
  obtain ⟨-, -, -, -, -, -, -, -, e0, e1, -, -, -, -⟩ := index_facts t
  unfold iblk0
  rw [View.read_apply]
  show V c main_v25 _ = V c main_v25 _
  congr 1
  funext a
  apply Fin.ext
  match a with
  | ⟨0, _⟩ => show win0_4.index t (0 : Fin 2) * 1 + 1 * (y 0).val = (i 0).val; rw [e0, h0]; omega
  | ⟨1, _⟩ => show win0_4.index t (1 : Fin 2) * 64 + 1 * (y 1).val = (i 1).val; rw [e1, h1]; omega

/-- The block of window 5 staged at point `t` is rows of the mask `5000·t …`: its entry `y` is the array's entry
    at row `5000·t + y₀` and column `y₁`. -/
theorem mask_block (c : Dev nD) (t : Fin cfg0.N) (y : S5000x64.Idx) (i : S100000x64.Idx)
    (h0 : (i 0).val = t.val * 5000 + (y 0).val) (h1 : (i 1).val = (y 1).val) :
    (iblk0 V c 5 t : Vec Ideal S5000x64 .f32) y = V c main_arg3 i := by
  obtain ⟨-, -, -, -, -, -, -, -, -, -, e0, e1, -, -⟩ := index_facts t
  unfold iblk0
  rw [View.read_apply]
  show V c main_arg3 _ = V c main_arg3 _
  congr 1
  funext a
  apply Fin.ext
  match a with
  | ⟨0, _⟩ => show win0_5.index t (0 : Fin 2) * 5000 + 1 * (y 0).val = (i 0).val; rw [e0, h0]; omega
  | ⟨1, _⟩ => show win0_5.index t (1 : Fin 2) * 64 + 1 * (y 1).val = (i 1).val; rw [e1, h1]; omega

/-- The write-back at grid point `t`: the rows `5000·t … 5000·t + 4999` of the layer applied to the arrays as the
    region finds them, read through the result window's block at `t`. -/
theorem flushed_eq (c : Dev nD) (t : Fin cfg0.N) :
    (dat0 (F := Ideal) V c).flushed 6 t = ((cfg0.win 6).blk t).view.read (Elt Ideal) (layerAt V c) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S128x64) zero_offsets,
    View.ld_unit_zero (S := S1x64) zero_offsets, View.ld_unit_zero (S := S5000x64) zero_offsets]
  obtain ⟨-, -, -, -, -, -, -, -, -, -, -, -, e0, e1⟩ := index_facts t
  funext j
  have hp : (j 0).val < 5000 := (j 0).isLt
  have hq : (j 1).val < 64 := (j 1).isLt
  have hx : (cfg0.win 6).xinj (grid0.coords t) j = ix2 (⟨(j 0).val, hp⟩ : Fin 5000) (⟨(j 1).val, hq⟩ : Fin 64) :=
    funext fun a => match a with | ⟨0, _⟩ => rfl | ⟨1, _⟩ => rfl
  show k0_pay1 (F := Ideal) (iblk0 V c 0 t) (iblk0 V c 1 t) (iblk0 V c 2 t) (iblk0 V c 3 t) (iblk0 V c 4 t) (iblk0 V c 5 t)
        ((cfg0.win 6).xinj (grid0.coords t) j)
      = layerAt V c (((cfg0.win 6).blk t).view.emb j)
  rw [hx]
  have hr : ((((cfg0.win 6).blk t).view.emb j) 0).val = t.val * 5000 + (j 0).val := by
    show win0_6.index t (0 : Fin 2) * 5000 + 1 * (j 0).val = _; rw [e0]; omega
  have hc : ((((cfg0.win 6).blk t).view.emb j) 1).val = (j 1).val := by
    show win0_6.index t (1 : Fin 2) * 64 + 1 * (j 1).val = _; rw [e1]; omega
  exact block_entry_eq_layer _ _ _ _ _ _ _ _ _ _ _ _ _ _ _
    (fun k => mean_block V c t _ _ hr rfl)
    (fun k => features_block V c t _ _ hr rfl)
    (fun k => left_weights_block V c t _ _ rfl hc)
    (fun k => right_weights_block V c t _ _ rfl hc)
    (bias_block V c t _ _ rfl hc)
    (mask_block V c t _ _ hr hc)

/-- An index of the result array is in point `t`'s block iff each coordinate is in the block's range on its axis. -/
theorem mem_block (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v26).slice (win0_6.rect t)).set ↔ _
  rw [View.set_slice_whole, Rect.mem_set_unit]
  exact Iff.rfl

/-- Every entry of the result array is written back by some point: row `r` lies in the block of point `r / 5000`
    (which is below twenty because `r < 100000`), and every point writes its block back. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, -, -, -, -, e0, e1⟩ := index_facts t
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 64 ≤ (i 1).val ∧ (i 1).val < win0_6.index t (1 : Fin 2) * 64 + 64; rw [e1]; omega

end Arrays

/-- After the region's twenty write-backs the result array holds, whatever it held before, the first layer of the
    mean, the features, the two weight matrices, the bias row and the mask as the region found them. -/
theorem final (V : (c : Dev nD) → (b : Ref sig .tc) → Buf (Elt Ideal) ((c : Thread nD τ).loc b)) (c : Dev nD) :
    (dat0 (F := Ideal) V c).arrAt 6 cfg0.N
      = Cert.Sage.layer1 (V c main_v24) (V c main_arg0) (V c main_arg4) (V c main_arg5) (V c main_v25) (V c main_arg3) :=
  (dat0 V c).arrAt_eq_of_cover 6 (layerAt V c) (fun t _ => flushed_eq V c t) covered

end Cert.KernelIdeal.Region0

end
-- ==== Proof.Region1.lean ====
/-
  The second layer's kernel region, read as one function of its argument arrays.

  The region walks ten row blocks of 10000 rows. At each block it forms, for rows `r` of the block and the
  eight columns `j`, the two contractions `∑ₖ mean[r,k]·W_l[k,j]` and `∑ₖ h[r,k]·W_r[k,j]` over the 64
  features, adds them, and adds the bias row's entry `j`. The narrowing of the operands before the
  products is the identity on the extended reals, so the block's value at `(r, j)` is the layer's formula
  at that row and column. The row blocks tile the 100000 rows: row `r` lies in block `r / 10000`. So the
  whole result array is the layer's function of the whole argument arrays.
-/
import proofs.«148262_j69277822484549_1_alg».proof.Proof.Gen.KernelIdeal.Frame
import proofs.«148262_j69277822484549_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## One block: the payload at an index -/

/-- The left operand of a block product is read at the output's row. -/
theorem lhs_row (i : S10000x8.Idx) (q : dot_S10000x64_S64x8_S10000x8_1_0_0_1_n_n.contr.Idx) :
    (dot_S10000x64_S64x8_S10000x8_1_0_0_1_n_n.lhsIdx i q 0).val = (i 0).val := by
  unfold DotDims.lhsIdx
  rw [dif_neg (show ¬(0 : Fin S10000x64.rank) ∈ dot_S10000x64_S64x8_S10000x8_1_0_0_1_n_n.lhsBatch by decide), dif_pos (show (0 : Fin S10000x64.rank) ∈ dot_S10000x64_S64x8_S10000x8_1_0_0_1_n_n.lhsNonContracting by decide)]
  rfl
/-- … and at the contracted coordinate on its feature axis. -/
theorem lhs_feature (i : S10000x8.Idx) (q : dot_S10000x64_S64x8_S10000x8_1_0_0_1_n_n.contr.Idx) :
    (dot_S10000x64_S64x8_S10000x8_1_0_0_1_n_n.lhsIdx i q 1).val = (q ⟨0, by decide⟩).val :=
  dot_S10000x64_S64x8_S10000x8_1_0_0_1_n_n.lhsIdx_val_of_single rfl i q
/-- The right operand is read at the contracted coordinate on its feature axis … -/
theorem rhs_feature (i : S10000x8.Idx) (q : dot_S10000x64_S64x8_S10000x8_1_0_0_1_n_n.contr.Idx) :
    (dot_S10000x64_S64x8_S10000x8_1_0_0_1_n_n.rhsIdx i q 0).val = (q ⟨0, by decide⟩).val :=
  dot_S10000x64_S64x8_S10000x8_1_0_0_1_n_n.rhsIdx_val_of_single rfl i q
/-- … and at the output's column. -/
theorem rhs_col (i : S10000x8.Idx) (q : dot_S10000x64_S64x8_S10000x8_1_0_0_1_n_n.contr.Idx) :
    (dot_S10000x64_S64x8_S10000x8_1_0_0_1_n_n.rhsIdx i q 1).val = (i 1).val := by
  unfold DotDims.rhsIdx
  rw [dif_neg (show ¬(1 : Fin S64x8.rank) ∈ dot_S10000x64_S64x8_S10000x8_1_0_0_1_n_n.rhsBatch by decide), dif_pos (show (1 : Fin S64x8.rank) ∈ dot_S10000x64_S64x8_S10000x8_1_0_0_1_n_n.rhsNonContracting by decide)]
  rfl

/-- A block product into the zero accumulator, at row `p` and column `q`: the plain sum over the 64 features. -/
theorem block_product_apply {φ₁ φ₂ : FTy} (a : FVec Ideal S10000x64 φ₁) (b : FVec Ideal S64x8 φ₂) (p : Fin 10000) (q : Fin 8) :
    matmul dot_S10000x64_S64x8_S10000x8_1_0_0_1_n_n none a b (constant (F := Ideal) S10000x8 .f32 0x00000000#32) (ix2 p q)
      = ∑ k : Fin 64, a (ix2 p k) * b (ix2 k q) := by
  show FloatOps.matmul dot_S10000x64_S64x8_S10000x8_1_0_0_1_n_n none a b (constant (F := Ideal) S10000x8 .f32 0x00000000#32) (ix2 p q) = _
  rw [Ideal.matmul_constant_zero_apply, ← Equiv.sum_comp (ValueIdx.contrEquiv1 dot_S10000x64_S64x8_S10000x8_1_0_0_1_n_n 64 rfl rfl).symm]
  refine Finset.sum_congr rfl fun k _ => ?_
  have hk := ValueIdx.contrEquiv1_symm_val dot_S10000x64_S64x8_S10000x8_1_0_0_1_n_n 64 rfl rfl k
  have el : dot_S10000x64_S64x8_S10000x8_1_0_0_1_n_n.lhsIdx (ix2 p q) ((ValueIdx.contrEquiv1 dot_S10000x64_S64x8_S10000x8_1_0_0_1_n_n 64 rfl rfl).symm k) = ix2 p k := funext fun ax => Fin.ext (by
    match ax with
    | ⟨0, _⟩ => exact lhs_row _ _
    | ⟨1, _⟩ => exact (lhs_feature _ _).trans hk)
  have er : dot_S10000x64_S64x8_S10000x8_1_0_0_1_n_n.rhsIdx (ix2 p q) ((ValueIdx.contrEquiv1 dot_S10000x64_S64x8_S10000x8_1_0_0_1_n_n 64 rfl rfl).symm k) = ix2 k q := funext fun ax => Fin.ext (by
    match ax with
    | ⟨0, _⟩ => exact (rhs_feature _ _).trans hk
    | ⟨1, _⟩ => exact rhs_col _ _)
  rw [el, er]

/-- The block's value at row `p` and column `q`: the two contractions over the features of the block's rows of
    `mean` and `h` against the weight matrices' column, plus the bias row's entry. -/
theorem payload_apply (x0 x1 : Vec Ideal S10000x64 .f32) (x2 x3 : Vec Ideal S64x8 .f32) (x4 : Vec Ideal S1x8 .f32)
    (p : Fin 10000) (q : Fin 8) :
    k1_pay1 x0 x1 x2 x3 x4 (ix2 p q)
      = (∑ k : Fin 64, x0 (ix2 p k) * x2 (ix2 k q)) + (∑ k : Fin 64, x1 (ix2 p k) * x3 (ix2 k q))
        + x4 (ix2 (0 : Fin 1) q) := by
  unfold k1_pay1
  simp only [shapeCast_self]
  rw [addf_apply, addf_apply, block_product_apply, block_product_apply, broadcastTo_1b_ab_apply]
  simp only [truncf_apply]

/-- The same at any index of the block, its coordinates read off by `row` and `col`. -/
theorem payload_at (x0 x1 : Vec Ideal S10000x64 .f32) (x2 x3 : Vec Ideal S64x8 .f32) (x4 : Vec Ideal S1x8 .f32)
    (j : S10000x8.Idx) :
    k1_pay1 x0 x1 x2 x3 x4 j
      = (∑ k : Fin 64, x0 (ix2 (Cert.Sage.row j) k) * x2 (ix2 k (Cert.Sage.col j)))
        + (∑ k : Fin 64, x1 (ix2 (Cert.Sage.row j) k) * x3 (ix2 k (Cert.Sage.col j)))
        + x4 (ix2 (0 : Fin 1) (Cert.Sage.col j)) := by
  obtain ⟨p, q, rfl⟩ : ∃ (p : Fin 10000) (q : Fin 8), j = ix2 p q := ⟨j 0, j 1, eq_ix2 j⟩
  exact payload_apply x0 x1 x2 x3 x4 p q

/-! ## Where the blocks sit in the arrays -/

theorem origin_eq : (![0, 0] : Fin 2 → Nat) = fun _ => 0 := funext fun a => by fin_cases a <;> rfl

/-- The index maps over the ten grid points: the windows of `mean`, `h` and of the result step one row block
    per point; the two weight matrices and the bias row stay at their one block. -/
theorem block_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Blocks
variable (V : (c : Dev nD) → (b : Ref sig .tc) → Buf (Elt Ideal) ((c : Thread nD τ).loc b))

/-- Row `p` of point `t`'s block of `mean` is row `10000·t + p` of the array. -/
theorem mean_block_read (c : Dev nD) (t : Fin cfg1.N) (p : Fin 10000) (k : Fin 64) (r : Fin 100000)
    (hr : r.val = t.val * 10000 + p.val) :
    (iblk1 V c 0 t : Vec Ideal S10000x64 .f32) (ix2 p k) = (V c main_v39 : S100000x64.Idx → Elt Ideal .f32) (ix2 r k) := by
  obtain ⟨e0, e1, -⟩ := block_index_facts t
  show V c main_v39 (((cfg1.win 0).blk t).view.emb (ix2 p k)) = V c main_v39 (ix2 r k)
  have h : ((cfg1.win 0).blk t).view.emb (ix2 p k) = ix2 r k := by
    funext a; apply Fin.ext
    match a with
    | ⟨0, _⟩ => show win1_0.index t (0 : Fin 2) * 10000 + 1 * p.val = r.val; omega
    | ⟨1, _⟩ => show win1_0.index t (1 : Fin 2) * 64 + 1 * k.val = k.val; omega
  rw [h]

/-- Row `p` of point `t`'s block of `h` is row `10000·t + p` of the array. -/
theorem feature_block_read (c : Dev nD) (t : Fin cfg1.N) (p : Fin 10000) (k : Fin 64) (r : Fin 100000)
    (hr : r.val = t.val * 10000 + p.val) :
    (iblk1 V c 1 t : Vec Ideal S10000x64 .f32) (ix2 p k) = (V c main_v26 : S100000x64.Idx → Elt Ideal .f32) (ix2 r k) := by
  obtain ⟨-, -, e0, e1, -⟩ := block_index_facts t
  show V c main_v26 (((cfg1.win 1).blk t).view.emb (ix2 p k)) = V c main_v26 (ix2 r k)
  have h : ((cfg1.win 1).blk t).view.emb (ix2 p k) = ix2 r k := by
    funext a; apply Fin.ext
    match a with
    | ⟨0, _⟩ => show win1_1.index t (0 : Fin 2) * 10000 + 1 * p.val = r.val; omega
    | ⟨1, _⟩ => show win1_1.index t (1 : Fin 2) * 64 + 1 * k.val = k.val; omega
  rw [h]

/-- The block of `W_l` is the whole matrix at every point. -/
theorem wl_block_read (c : Dev nD) (t : Fin cfg1.N) (k : Fin 64) (q : Fin 8) :
    (iblk1 V c 2 t : Vec Ideal S64x8 .f32) (ix2 k q) = (V c main_arg7 : S64x8.Idx → Elt Ideal .f32) (ix2 k q) := by
  obtain ⟨-, -, -, -, e0, e1, -⟩ := block_index_facts t
  show V c main_arg7 (((cfg1.win 2).blk t).view.emb (ix2 k q)) = V c main_arg7 (ix2 k q)
  have h : ((cfg1.win 2).blk t).view.emb (ix2 k q) = ix2 k q := by
    funext a; apply Fin.ext
    match a with
    | ⟨0, _⟩ => show win1_2.index t (0 : Fin 2) * 64 + 1 * k.val = k.val; omega
    | ⟨1, _⟩ => show win1_2.index t (1 : Fin 2) * 8 + 1 * q.val = q.val; omega
  rw [h]

/-- The block of `W_r` is the whole matrix at every point. -/
theorem wr_block_read (c : Dev nD) (t : Fin cfg1.N) (k : Fin 64) (q : Fin 8) :
    (iblk1 V c 3 t : Vec Ideal S64x8 .f32) (ix2 k q) = (V c main_arg8 : S64x8.Idx → Elt Ideal .f32) (ix2 k q) := by
  obtain ⟨-, -, -, -, -, -, e0, e1, -⟩ := block_index_facts t
  show V c main_arg8 (((cfg1.win 3).blk t).view.emb (ix2 k q)) = V c main_arg8 (ix2 k q)
  have h : ((cfg1.win 3).blk t).view.emb (ix2 k q) = ix2 k q := by
    funext a; apply Fin.ext
    match a with
    | ⟨0, _⟩ => show win1_3.index t (0 : Fin 2) * 64 + 1 * k.val = k.val; omega
    | ⟨1, _⟩ => show win1_3.index t (1 : Fin 2) * 8 + 1 * q.val = q.val; omega
  rw [h]

/-- The block of the bias is the whole row at every point. -/
theorem bias_block_read (c : Dev nD) (t : Fin cfg1.N) (q : Fin 8) :
    (iblk1 V c 4 t : Vec Ideal S1x8 .f32) (ix2 (0 : Fin 1) q) = (V c main_v40 : S1x8.Idx → Elt Ideal .f32) (ix2 (0 : Fin 1) q) := by
  obtain ⟨-, -, -, -, -, -, -, -, e0, e1, -⟩ := block_index_facts t
  show V c main_v40 (((cfg1.win 4).blk t).view.emb (ix2 (0 : Fin 1) q)) = V c main_v40 (ix2 (0 : Fin 1) q)
  have h : ((cfg1.win 4).blk t).view.emb (ix2 (0 : Fin 1) q) = ix2 (0 : Fin 1) q := by
    funext a; apply Fin.ext
    match a with
    | ⟨0, _⟩ => show win1_4.index t (0 : Fin 2) * 1 + 1 * (0 : Fin 1).val = (0 : Fin 1).val; omega
    | ⟨1, _⟩ => show win1_4.index t (1 : Fin 2) * 8 + 1 * q.val = q.val; omega
  rw [h]

end Blocks

/-! ## From the blocks to the array -/

section Array
variable (V : (c : Dev nD) → (b : Ref sig .tc) → Buf (Elt Ideal) ((c : Thread nD τ).loc b))

/-- The layer on the arrays as the region finds them. -/
abbrev layer (c : Dev nD) : FVec Ideal ⟨2, ![100000, 8]⟩ .f32 :=
  Cert.Sage.layer2 (V c main_v39) (V c main_v26) (V c main_arg7) (V c main_arg8) (V c main_v40)

/-- The layer at an index, written out. -/
theorem layer2_apply (mean h : FVec Ideal ⟨2, ![100000, 64]⟩ .f32) (wl wr : FVec Ideal ⟨2, ![64, 8]⟩ .f32)
    (b : FVec Ideal ⟨2, ![1, 8]⟩ .f32) (i : S100000x8.Idx) :
    Cert.Sage.layer2 mean h wl wr b i
      = (∑ k : Fin 64, mean (ix2 (Cert.Sage.row i) k) * wl (ix2 k (Cert.Sage.col i)))
        + (∑ k : Fin 64, h (ix2 (Cert.Sage.row i) k) * wr (ix2 k (Cert.Sage.col i)))
        + b (ix2 (0 : Fin 1) (Cert.Sage.col i)) := rfl

/-- Point `t`'s block value at `j` is the layer at the array index `i` that `j` sits at: row `10000·t + j₀`,
    column `j₁`. -/
theorem block_value_eq (c : Dev nD) (t : Fin cfg1.N) (j : S10000x8.Idx) (i : S100000x8.Idx)
    (h0 : (i 0).val = t.val * 10000 + (j 0).val) (h1 : (i 1).val = (j 1).val) :
    k1_pay1 (iblk1 V c 0 t) (iblk1 V c 1 t) (iblk1 V c 2 t) (iblk1 V c 3 t) (iblk1 V c 4 t) j = layer V c i := by
  have hc : Cert.Sage.col i = Cert.Sage.col j := Fin.ext h1
  show _ = Cert.Sage.layer2 (V c main_v39) (V c main_v26) (V c main_arg7) (V c main_arg8) (V c main_v40) i
  rw [payload_at, layer2_apply, hc, bias_block_read V c t (Cert.Sage.col j)]
  simp only [mean_block_read V c t (Cert.Sage.row j) _ (Cert.Sage.row i) h0,
    feature_block_read V c t (Cert.Sage.row j) _ (Cert.Sage.row i) h0,
    wl_block_read V c t, wr_block_read V c t]

/-- What point `t` writes back is block `t` of the layer of the arrays as the region finds them. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero origin_eq]
  simp only [View.ld_unit_zero (S := S10000x64) origin_eq, View.ld_unit_zero (S := S64x8) origin_eq,
    View.ld_unit_zero (S := S1x8) origin_eq]
  obtain ⟨-, -, -, -, -, -, -, -, -, -, e0, e1⟩ := block_index_facts t
  funext j
  show k1_pay1 (iblk1 V c 0 t) (iblk1 V c 1 t) (iblk1 V c 2 t) (iblk1 V c 3 t) (iblk1 V c 4 t) j
      = layer V c (((cfg1.win 5).blk t).view.emb j)
  refine block_value_eq V c t j _ ?_ ?_
  · show win1_5.index t (0 : Fin 2) * 10000 + 1 * (j 0).val = t.val * 10000 + (j 0).val; omega
  · show win1_5.index t (1 : Fin 2) * 8 + 1 * (j 1).val = (j 1).val; omega

/-- An index of the result array is in point `t`'s block iff each coordinate is in the block's range on its axis. -/
theorem mem_block (t : Fin cfg1.N) (i : S100000x8.Idx) :
    i ∈ ((cfg1.win 5).blk t).view.set ↔ ∀ a : Fin 2, win1_5.index t a * S10000x8.size a ≤ (i a).val ∧ (i a).val < win1_5.index t a * S10000x8.size a + S10000x8.size a := by
  show i ∈ ((View.whole main_v41).slice (win1_5.rect t)).set ↔ _
  rw [View.set_slice_whole, Rect.mem_set_unit]
  exact Iff.rfl

/-- The ten row blocks tile the rows: row `r` is in block `r / 10000`. -/
theorem rows_covered (i : S100000x8.Idx) :
    ∃ t : Fin cfg1.N, (cfg1.win 5).flush t = true ∧ i ∈ ((cfg1.win 5).blk t).view.set := by
  have hi0 : (i 0).val < 100000 := (i 0).isLt
  have hi1 : (i 1).val < 8 := (i 1).isLt
  have hN : grid1.N = 10 := N_1
  obtain ⟨t, ht⟩ : ∃ t : Fin cfg1.N, t.val = (i 0).val / 10000 :=
    ⟨⟨(i 0).val / 10000, by show (i 0).val / 10000 < grid1.N; rw [hN]; omega⟩, rfl⟩
  obtain ⟨-, -, -, -, -, -, -, -, -, -, e0, e1⟩ := block_index_facts t
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 8 ≤ (i 1).val ∧ (i 1).val < win1_5.index t (1 : Fin 2) * 8 + 8; omega

/-- The result array after the region: the second layer of the arrays as the region finds them. -/
theorem final (c : Dev nD) :
    (dat1 (F := Ideal) V c).arrAt 5 cfg1.N
      = Cert.Sage.layer2 (V c main_v39) (V c main_v26) (V c main_arg7) (V c main_arg8) (V c main_v40) :=
  (dat1 V c).arrAt_eq_of_cover 5 (layer V c) (fun t _ => flushed_eq V c t) rows_covered

end Array

end Cert.KernelIdeal.Region1

end
-- ==== Proof.KernelValue.lean ====
/-
  The kernel program's result as one expression of its arguments.

  Walking the buffer contents from the launch memory through the five segments: the first stretch of host
  operations forms the scaled neighbourhood sum of the features; the first grid leaves the first layer of
  the specification applied to it; the second stretch aggregates that hidden array the same way; the second
  grid leaves the second layer; the last stretch looks rows up. A buffer that a segment does not write keeps
  its contents, so the argument arrays are read at their launch contents throughout.
-/
import proofs.«148262_j69277822484549_1_alg».proof.Proof.Stages
import proofs.«148262_j69277822484549_1_alg».proof.Proof.Spec
import proofs.«148262_j69277822484549_1_alg».proof.Proof.Region0
import proofs.«148262_j69277822484549_1_alg».proof.Proof.Region1

set_option maxRecDepth 16384

noncomputable section

namespace Cert.Bridge

open Idealize.ShloMosaic Idealize.ShloMosaic.TcCoe Idealize.SL.Sem Idealize.ShloMosaic.StableHlo
open Cert.KernelIdeal Cert.KernelIdeal.Gen

section Keeps
variable (W : Valuation τ sig (Elt Ideal))

/-- The first stretch does not write `main_arg0`. -/
theorem head_keep_main_arg0 : StableHlo.after (hostOps0 (F := Ideal)) W (Proc.devRef .tc main_arg0) = W (Proc.devRef .tc main_arg0) := by
  after_results_simp
/-- The first stretch does not write `main_arg2`. -/
theorem head_keep_main_arg2 : StableHlo.after (hostOps0 (F := Ideal)) W (Proc.devRef .tc main_arg2) = W (Proc.devRef .tc main_arg2) := by
  after_results_simp
/-- The first stretch does not write `main_arg3`. -/
theorem head_keep_main_arg3 : StableHlo.after (hostOps0 (F := Ideal)) W (Proc.devRef .tc main_arg3) = W (Proc.devRef .tc main_arg3) := by
  after_results_simp
/-- The first stretch does not write `main_arg4`. -/
theorem head_keep_main_arg4 : StableHlo.after (hostOps0 (F := Ideal)) W (Proc.devRef .tc main_arg4) = W (Proc.devRef .tc main_arg4) := by
  after_results_simp
/-- The first stretch does not write `main_arg5`. -/
theorem head_keep_main_arg5 : StableHlo.after (hostOps0 (F := Ideal)) W (Proc.devRef .tc main_arg5) = W (Proc.devRef .tc main_arg5) := by
  after_results_simp
/-- The first stretch does not write `main_arg7`. -/
theorem head_keep_main_arg7 : StableHlo.after (hostOps0 (F := Ideal)) W (Proc.devRef .tc main_arg7) = W (Proc.devRef .tc main_arg7) := by
  after_results_simp
/-- The first stretch does not write `main_arg8`. -/
theorem head_keep_main_arg8 : StableHlo.after (hostOps0 (F := Ideal)) W (Proc.devRef .tc main_arg8) = W (Proc.devRef .tc main_arg8) := by
  after_results_simp
/-- The first stretch does not write `main_arg9`. -/
theorem head_keep_main_arg9 : StableHlo.after (hostOps0 (F := Ideal)) W (Proc.devRef .tc main_arg9) = W (Proc.devRef .tc main_arg9) := by
  after_results_simp
/-- The second stretch does not write `main_v26`. -/
theorem mid_keep_main_v26 : StableHlo.after (hostOps1 (F := Ideal)) W (Proc.devRef .tc main_v26) = W (Proc.devRef .tc main_v26) := by
  after_results_simp
/-- The second stretch does not write `main_arg7`. -/
theorem mid_keep_main_arg7 : StableHlo.after (hostOps1 (F := Ideal)) W (Proc.devRef .tc main_arg7) = W (Proc.devRef .tc main_arg7) := by
  after_results_simp
/-- The second stretch does not write `main_arg8`. -/
theorem mid_keep_main_arg8 : StableHlo.after (hostOps1 (F := Ideal)) W (Proc.devRef .tc main_arg8) = W (Proc.devRef .tc main_arg8) := by
  after_results_simp
/-- The second stretch does not write `main_arg2`. -/
theorem mid_keep_main_arg2 : StableHlo.after (hostOps1 (F := Ideal)) W (Proc.devRef .tc main_arg2) = W (Proc.devRef .tc main_arg2) := by
  after_results_simp

end Keeps

variable (m : (ℓ : Loc nD τ sig) → Buf (Elt Ideal) ℓ) (ρ : Dev nD → PrngReg) (c : Dev nD)

/-- The first layer's output as an expression of the launch memory: the specification's first layer of the
    scaled neighbourhood sum, the features, the two weight matrices, the bias row and the mask. -/
def hidden : FVec Ideal S100000x64 .f32 :=
  Cert.Sage.layer1
    (mulf (agg1 (m ((c : Thread nD τ).loc main_arg0)) (m ((c : Thread nD τ).loc main_arg1))) (rows128 (recipDeg (m ((c : Thread nD τ).loc main_arg1)))))
    (m ((c : Thread nD τ).loc main_arg0)) (m ((c : Thread nD τ).loc main_arg4)) (m ((c : Thread nD τ).loc main_arg5))
    (biasRow64 (m ((c : Thread nD τ).loc main_arg6))) (m ((c : Thread nD τ).loc main_arg3))

/-- The second layer's output as an expression of the launch memory. -/
def embedding : FVec Ideal S100000x8 .f32 :=
  Cert.Sage.layer2
    (mulf (agg2 (hidden m c) (Cert.ReferenceIdeal.Read.val_main_v1 (F := Ideal) (m ((c : Thread nD τ).loc main_arg1)))
        (Cert.ReferenceIdeal.Read.val_main_v3 (F := Ideal) (m ((c : Thread nD τ).loc main_arg1))))
      (rows64 (recipDeg (m ((c : Thread nD τ).loc main_arg1)))))
    (hidden m c) (m ((c : Thread nD τ).loc main_arg7)) (m ((c : Thread nD τ).loc main_arg8))
    (biasRow8 (m ((c : Thread nD τ).loc main_arg9)))

/-! ## The first grid's entry contents -/

theorem V1_v24 : (V1 m ρ c main_v24 : FVec Ideal S100000x128 .f32)
    = mulf (agg1 (m ((c : Thread nD τ).loc main_arg0)) (m ((c : Thread nD τ).loc main_arg1))) (rows128 (recipDeg (m ((c : Thread nD τ).loc main_arg1)))) :=
  head_mean (W0 m ρ c)
theorem V1_v25 : (V1 m ρ c main_v25 : FVec Ideal S1x64 .f32) = biasRow64 (m ((c : Thread nD τ).loc main_arg6)) :=
  head_bias (W0 m ρ c)
theorem V1_arg0 : V1 m ρ c main_arg0 = m ((c : Thread nD τ).loc main_arg0) := head_keep_main_arg0 (W0 m ρ c)
theorem V1_arg3 : V1 m ρ c main_arg3 = m ((c : Thread nD τ).loc main_arg3) := head_keep_main_arg3 (W0 m ρ c)
theorem V1_arg4 : V1 m ρ c main_arg4 = m ((c : Thread nD τ).loc main_arg4) := head_keep_main_arg4 (W0 m ρ c)
theorem V1_arg5 : V1 m ρ c main_arg5 = m ((c : Thread nD τ).loc main_arg5) := head_keep_main_arg5 (W0 m ρ c)

/-! ## After the first grid -/

/-- The first grid leaves the hidden array in its output buffer. -/
theorem W2_v26 : (W2 m ρ c (Proc.devRef .tc main_v26) : FVec Ideal S100000x64 .f32) = hidden m c := by
  refine (W2_arr m ρ c 6).trans ((Cert.KernelIdeal.Region0.final (V1 m ρ) c).trans ?_)
  rw [V1_v24 m ρ c, V1_v25 m ρ c, V1_arg0 m ρ c, V1_arg3 m ρ c, V1_arg4 m ρ c, V1_arg5 m ρ c]
  rfl

theorem W2_v1 : (W2 m ρ c (Proc.devRef .tc main_v1) : IVec S1600000 32)
    = Cert.ReferenceIdeal.Read.val_main_v1 (F := Ideal) (m ((c : Thread nD τ).loc main_arg1)) :=
  (W2_of_ne m ρ c main_v1 (by decide)).trans (head_src (W0 m ρ c))
theorem W2_v3 : (W2 m ρ c (Proc.devRef .tc main_v3) : IVec S1600000 32)
    = Cert.ReferenceIdeal.Read.val_main_v3 (F := Ideal) (m ((c : Thread nD τ).loc main_arg1)) :=
  (W2_of_ne m ρ c main_v3 (by decide)).trans (head_dst (W0 m ρ c))
theorem W2_v11 : (W2 m ρ c (Proc.devRef .tc main_v11) : FVec Ideal S100000 .f32)
    = recipDeg (m ((c : Thread nD τ).loc main_arg1)) :=
  (W2_of_ne m ρ c main_v11 (by decide)).trans (head_recip (W0 m ρ c))
theorem W2_arg2 : W2 m ρ c (Proc.devRef .tc main_arg2) = m ((c : Thread nD τ).loc main_arg2) :=
  (W2_of_ne m ρ c main_arg2 (by decide)).trans (head_keep_main_arg2 (W0 m ρ c))
theorem W2_arg7 : W2 m ρ c (Proc.devRef .tc main_arg7) = m ((c : Thread nD τ).loc main_arg7) :=
  (W2_of_ne m ρ c main_arg7 (by decide)).trans (head_keep_main_arg7 (W0 m ρ c))
theorem W2_arg8 : W2 m ρ c (Proc.devRef .tc main_arg8) = m ((c : Thread nD τ).loc main_arg8) :=
  (W2_of_ne m ρ c main_arg8 (by decide)).trans (head_keep_main_arg8 (W0 m ρ c))
theorem W2_arg9 : W2 m ρ c (Proc.devRef .tc main_arg9) = m ((c : Thread nD τ).loc main_arg9) :=
  (W2_of_ne m ρ c main_arg9 (by decide)).trans (head_keep_main_arg9 (W0 m ρ c))

/-! ## The second grid's entry contents -/

theorem V3_v39 : (V3 m ρ c main_v39 : FVec Ideal S100000x64 .f32)
    = mulf (agg2 (hidden m c) (Cert.ReferenceIdeal.Read.val_main_v1 (F := Ideal) (m ((c : Thread nD τ).loc main_arg1)))
        (Cert.ReferenceIdeal.Read.val_main_v3 (F := Ideal) (m ((c : Thread nD τ).loc main_arg1))))
      (rows64 (recipDeg (m ((c : Thread nD τ).loc main_arg1)))) := by
  refine (mid_mean (W2 m ρ c)).trans ?_
  rw [W2_v26 m ρ c, W2_v1 m ρ c, W2_v3 m ρ c, W2_v11 m ρ c]
theorem V3_v26 : (V3 m ρ c main_v26 : FVec Ideal S100000x64 .f32) = hidden m c :=
  (mid_keep_main_v26 (W2 m ρ c)).trans (W2_v26 m ρ c)
theorem V3_arg7 : V3 m ρ c main_arg7 = m ((c : Thread nD τ).loc main_arg7) :=
  (mid_keep_main_arg7 (W2 m ρ c)).trans (W2_arg7 m ρ c)
theorem V3_arg8 : V3 m ρ c main_arg8 = m ((c : Thread nD τ).loc main_arg8) :=
  (mid_keep_main_arg8 (W2 m ρ c)).trans (W2_arg8 m ρ c)
theorem V3_v40 : (V3 m ρ c main_v40 : FVec Ideal S1x8 .f32) = biasRow8 (m ((c : Thread nD τ).loc main_arg9)) := by
  refine (mid_bias (W2 m ρ c)).trans ?_
  rw [W2_arg9 m ρ c]

/-! ## After the second grid, and the result -/

/-- The second grid leaves the embedding array in its output buffer. -/
theorem W4_v41 : (W4 m ρ c (Proc.devRef .tc main_v41) : FVec Ideal S100000x8 .f32) = embedding m c := by
  refine (W4_arr m ρ c 5).trans ((Cert.KernelIdeal.Region1.final (V3 m ρ) c).trans ?_)
  rw [V3_v39 m ρ c, V3_v26 m ρ c, V3_arg7 m ρ c, V3_arg8 m ρ c, V3_v40 m ρ c]
  rfl

theorem W4_arg2 : W4 m ρ c (Proc.devRef .tc main_arg2) = m ((c : Thread nD τ).loc main_arg2) :=
  (W4_of_ne m ρ c main_arg2 (by decide)).trans ((mid_keep_main_arg2 (W2 m ρ c)).trans (W2_arg2 m ρ c))

/-- THE KERNEL PROGRAM'S RESULT: the rows of the embedding array at the index list. -/
theorem result_eq : (W5 m ρ c (Proc.devRef .tc main_v48) : FVec Ideal S16384x8 .f32)
    = lookup (embedding m c) (m ((c : Thread nD τ).loc main_arg2)) := by
  refine (tail_lookup (W4 m ρ c)).trans ?_
  rw [W4_v41 m ρ c, W4_arg2 m ρ c]

end Cert.Bridge

end
-- ==== Proof.RefLayers.lean ====
/-
  The reference program's two dense layers are the specification's layers, as whole arrays.

  Each layer of the reference program is a short chain of elementwise operations around two matrix
  products: entry `(r, j)` of a product is the sum over the contracted coordinate `k` of the left operand at
  `(r, k)` times the right operand at `(k, j)`; the bias vector is first laid out as a single row and then
  repeated down the rows, so entry `(r, j)` of the repeated bias is entry `(0, j)` of that row. Reading the chain
  at one index and naming the coordinates `r = row i`, `j = col i` gives exactly the specification's formula.
-/
import proofs.«148262_j69277822484549_1_alg».proof.Proof.Gen.ReferenceIdeal.Read
import proofs.«148262_j69277822484549_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Layers

open Cert.ReferenceIdeal Cert.ReferenceIdeal.Gen Cert.ReferenceIdeal.Read Idealize.ShloMosaic Idealize.ShloMosaic.ValueIdx
open Cert.Sage

/-! ## The index maps of the first layer, in coordinates -/

/-- The left operand of either first-layer product is read at `(row i, k)`. -/
theorem lidx23_eq (i : S100000x64.Idx) (k : Fin 128) : lidx_main_v23 i k = ix2 (row i) k :=
  funext fun a => Fin.ext (by match a with | ⟨0, _⟩ => rfl | ⟨1, _⟩ => rfl)

/-- The right operand of either first-layer product is read at `(k, col i)`. -/
theorem ridx23_eq (i : S100000x64.Idx) (k : Fin 128) : ridx_main_v23 i k = ix2 k (col i) :=
  funext fun a => Fin.ext (by match a with | ⟨0, _⟩ => rfl | ⟨1, _⟩ => rfl)

/-- The second product reads its operands at the same places as the first. -/
theorem lidx24_eq (i : S100000x64.Idx) (k : Fin 128) : lidx_main_v24 i k = ix2 (row i) k :=
  funext fun a => Fin.ext (by match a with | ⟨0, _⟩ => rfl | ⟨1, _⟩ => rfl)

theorem ridx24_eq (i : S100000x64.Idx) (k : Fin 128) : ridx_main_v24 i k = ix2 k (col i) :=
  funext fun a => Fin.ext (by match a with | ⟨0, _⟩ => rfl | ⟨1, _⟩ => rfl)

/-- The repeated bias is read at `(0, col i)` of the bias row. -/
theorem idx27_eq (i : S100000x64.Idx) : idx_main_v27 i = ix2 (0 : Fin 1) (col i) :=
  funext fun a => Fin.ext (by match a with | ⟨0, _⟩ => rfl | ⟨1, _⟩ => rfl)

/-- The first layer of the reference program is the specification's first layer. -/
theorem layer1_eq (x0 : (⟨S100000x128, .f32⟩ : BufTy).Contents (Elt Ideal))
    (x1 : (⟨S2x1600000, .i32⟩ : BufTy).Contents (Elt Ideal))
    (x3 : (⟨S100000x64, .f32⟩ : BufTy).Contents (Elt Ideal))
    (x4 x5 : (⟨S128x64, .f32⟩ : BufTy).Contents (Elt Ideal))
    (x6 : (⟨S64, .f32⟩ : BufTy).Contents (Elt Ideal)) :
    val_main_v35 (F := Ideal) x0 x1 x3 x4 x5 x6
      = Cert.Sage.layer1 (val_main_v22 (F := Ideal) x0 x1) x0 x4 x5 (val_main_v26 (F := Ideal) x6) x3 := by
  funext i
  rw [val_main_v35_apply, val_main_v33_apply, val_main_v29_apply, val_main_v28_apply, val_main_v25_apply,
    val_main_v23_apply, val_main_v24_apply, val_main_v27_apply, val_main_v32_apply, val_main_v31_apply,
    val_main_v34_apply, val_main_cst_5_apply, val_main_v30_apply, val_main_cst_4_apply,
    val_main_call0_v0_apply, val_main_call0_cst_apply]
  simp only [lidx23_eq, ridx23_eq, lidx24_eq, ridx24_eq, idx27_eq, Ideal.mulf_def, Ideal.addf_def,
    Ideal.maximumf_def, Ideal.ofBits_def]
  rfl

/-! ## The index maps of the second layer, in coordinates -/

theorem lidx55_eq (i : S100000x8.Idx) (k : Fin 64) : lidx_main_v55 i k = ix2 (row i) k :=
  funext fun a => Fin.ext (by match a with | ⟨0, _⟩ => rfl | ⟨1, _⟩ => rfl)

theorem ridx55_eq (i : S100000x8.Idx) (k : Fin 64) : ridx_main_v55 i k = ix2 k (col i) :=
  funext fun a => Fin.ext (by match a with | ⟨0, _⟩ => rfl | ⟨1, _⟩ => rfl)

theorem lidx56_eq (i : S100000x8.Idx) (k : Fin 64) : lidx_main_v56 i k = ix2 (row i) k :=
  funext fun a => Fin.ext (by match a with | ⟨0, _⟩ => rfl | ⟨1, _⟩ => rfl)

theorem ridx56_eq (i : S100000x8.Idx) (k : Fin 64) : ridx_main_v56 i k = ix2 k (col i) :=
  funext fun a => Fin.ext (by match a with | ⟨0, _⟩ => rfl | ⟨1, _⟩ => rfl)

/-- The repeated bias is read at `(0, col i)` of the bias row. -/
theorem idx59_eq (i : S100000x8.Idx) : idx_main_v59 i = ix2 (0 : Fin 1) (col i) :=
  funext fun a => Fin.ext (by match a with | ⟨0, _⟩ => rfl | ⟨1, _⟩ => rfl)

/-- The second layer of the reference program is the specification's second layer, applied to the second
    neighbourhood mean and the first layer's output. -/
theorem layer2_eq (x0 : (⟨S100000x128, .f32⟩ : BufTy).Contents (Elt Ideal))
    (x1 : (⟨S2x1600000, .i32⟩ : BufTy).Contents (Elt Ideal))
    (x3 : (⟨S100000x64, .f32⟩ : BufTy).Contents (Elt Ideal))
    (x4 x5 : (⟨S128x64, .f32⟩ : BufTy).Contents (Elt Ideal))
    (x6 : (⟨S64, .f32⟩ : BufTy).Contents (Elt Ideal))
    (x7 x8 : (⟨S64x8, .f32⟩ : BufTy).Contents (Elt Ideal))
    (x9 : (⟨S8, .f32⟩ : BufTy).Contents (Elt Ideal)) :
    val_main_v60 (F := Ideal) x0 x1 x3 x4 x5 x6 x7 x8 x9
      = Cert.Sage.layer2 (val_main_v54 (F := Ideal) x0 x1 x3 x4 x5 x6)
          (val_main_v35 (F := Ideal) x0 x1 x3 x4 x5 x6) x7 x8 (val_main_v58 (F := Ideal) x9) := by
  funext i
  rw [val_main_v60_apply, val_main_v57_apply, val_main_v55_apply, val_main_v56_apply, val_main_v59_apply]
  simp only [lidx55_eq, ridx55_eq, lidx56_eq, ridx56_eq, idx59_eq, Ideal.addf_def]
  rfl

end Cert.ReferenceIdeal.Layers

end
-- ==== Proof.Bridge.lean ====
/-
  The two programs compute one function of the argument arrays.

  Both apply the same aggregation, the same two dense layers and the same final lookup; they differ in one
  place per layer: the kernel program scales the neighbourhood sum by the reciprocal `1 / max(deg, 1)`
  where the reference divides it by `max(deg, 1)`. Row by row these agree on every extended real, because
  `max(deg, 1) ≥ 1` is never zero. The kernel program also lays its bias vectors out as one-row matrices by
  a reshape where the reference uses a broadcast; the two one-row matrices are equal entry by entry.
-/
import proofs.«148262_j69277822484549_1_alg».proof.Proof.Stages
import proofs.«148262_j69277822484549_1_alg».proof.Proof.Spec
import proofs.«148262_j69277822484549_1_alg».proof.Proof.RefLayers
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx
open Cert.ReferenceIdeal Cert.ReferenceIdeal.Gen Cert.ReferenceIdeal.Read
open Cert.Sage (row col)

/-- Every entry of the all-ones vector is the float `1.0`. -/
theorem ones_apply (j : S100000.Idx) : ones j = Ideal.ofBits .f32 0x3F800000#32 := by
  unfold ones
  exact broadcastInDim_apply _ bcast_S_S100000 _ j (fun a => a.elim0) (fun a => a.elim0)

/-- A per-node scalar spread over 128 columns reads the node's scalar in every column. -/
theorem rows128_apply (r : FVec Ideal S100000 .f32) (i : S100000x128.Idx) : rows128 r i = r (ix1 (row i)) := by
  unfold rows128
  rw [broadcastInDim_apply _ bcast_S100000x1_S100000x128_0_1 _ i (ix2 (row i) (0 : Fin 1)) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])]
  exact broadcastInDim_apply _ bcast_S100000_S100000x1_0 r _ (ix1 (row i)) (fun a => match a with
      | ⟨0, _⟩ => by show (i 0).val = if (100000 : Nat) = 1 then 0 else (i 0).val; rw [if_neg (by decide)])

/-- A per-node scalar spread over 64 columns reads the node's scalar in every column. -/
theorem rows64_apply (r : FVec Ideal S100000 .f32) (i : S100000x64.Idx) : rows64 r i = r (ix1 (row i)) := by
  unfold rows64
  rw [broadcastInDim_apply _ bcast_S100000x1_S100000x64_0_1 _ i (ix2 (row i) (0 : Fin 1)) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])]
  exact broadcastInDim_apply _ bcast_S100000_S100000x1_0 r _ (ix1 (row i)) (fun a => match a with
      | ⟨0, _⟩ => by show (i 0).val = if (100000 : Nat) = 1 then 0 else (i 0).val; rw [if_neg (by decide)])

/-- Scaling the rows of `a` by `1 / max(u, 1)` is dividing them by `max(u, 1)` (128 columns). -/
theorem scale128 (a : FVec Ideal S100000x128 .f32) (u : FVec Ideal S100000 .f32) :
    mulf a (rows128 (Host.divf (F := Ideal) ones (maximumf u ones)))
      = Host.divf (F := Ideal) a (rows128 (maximumf u ones)) := by
  funext i
  show a i * rows128 (Host.divf (F := Ideal) ones (maximumf u ones)) i = Ideal.div (a i) (rows128 (maximumf u ones) i)
  rw [rows128_apply, rows128_apply]
  show a i * Ideal.div (ones (ix1 (row i))) (max (u (ix1 (row i))) (ones (ix1 (row i))))
    = Ideal.div (a i) (max (u (ix1 (row i))) (ones (ix1 (row i))))
  rw [ones_apply]
  exact Cert.Sage.mul_recip_eq_div _ _

/-- Scaling the rows of `a` by `1 / max(u, 1)` is dividing them by `max(u, 1)` (64 columns). -/
theorem scale64 (a : FVec Ideal S100000x64 .f32) (u : FVec Ideal S100000 .f32) :
    mulf a (rows64 (Host.divf (F := Ideal) ones (maximumf u ones)))
      = Host.divf (F := Ideal) a (rows64 (maximumf u ones)) := by
  funext i
  show a i * rows64 (Host.divf (F := Ideal) ones (maximumf u ones)) i = Ideal.div (a i) (rows64 (maximumf u ones) i)
  rw [rows64_apply, rows64_apply]
  show a i * Ideal.div (ones (ix1 (row i))) (max (u (ix1 (row i))) (ones (ix1 (row i))))
    = Ideal.div (a i) (max (u (ix1 (row i))) (ones (ix1 (row i))))
  rw [ones_apply]
  exact Cert.Sage.mul_recip_eq_div _ _

/-- A bias vector reshaped to one row is the bias vector broadcast to one row (64 entries). -/
theorem biasRow64_eq (b : FVec Ideal S64 .f32) : biasRow64 b = val_main_v26 (F := Ideal) b := by
  funext i
  rw [val_main_v26_apply]
  unfold biasRow64
  rw [eq_ix2 i]
  refine (shapeCast_a_1a_apply b _ (i 0) (i 1)).trans (congrArg b (funext fun a => Fin.ext ?_))
  match a with
  | ⟨0, _⟩ => rfl

/-- A bias vector reshaped to one row is the bias vector broadcast to one row (8 entries). -/
theorem biasRow8_eq (b : FVec Ideal S8 .f32) : biasRow8 b = val_main_v58 (F := Ideal) b := by
  funext i
  rw [val_main_v58_apply]
  unfold biasRow8
  rw [eq_ix2 i]
  refine (shapeCast_a_1a_apply b _ (i 0) (i 1)).trans (congrArg b (funext fun a => Fin.ext ?_))
  match a with
  | ⟨0, _⟩ => rfl

variable (x0 : FVec Ideal S100000x128 .f32) (x1 : IVec S2x1600000 32) (x2 : IVec S16384 32)
  (x3 : FVec Ideal S100000x64 .f32) (x4 x5 : FVec Ideal S128x64 .f32) (x6 : FVec Ideal S64 .f32)
  (x7 x8 : FVec Ideal S64x8 .f32) (x9 : FVec Ideal S8 .f32)

/-- The first neighbourhood mean: sum scaled by the reciprocal = sum divided. -/
theorem mean1_eq : mulf (agg1 x0 x1) (rows128 (recipDeg x1)) = val_main_v22 (F := Ideal) x0 x1 := by
  show mulf (val_main_v13 (F := Ideal) x0 x1) (rows128 (Host.divf (F := Ideal) ones (maximumf (val_main_v17 (F := Ideal) x1) ones)))
    = Host.divf (F := Ideal) (val_main_v13 (F := Ideal) x0 x1) (rows128 (maximumf (val_main_v17 (F := Ideal) x1) ones))
  exact scale128 _ _

/-- The second neighbourhood mean of any hidden array `h`: sum scaled by the reciprocal = sum divided. -/
theorem mean2_eq (h : FVec Ideal S100000x64 .f32) :
    mulf (agg2 h (val_main_v1 (F := Ideal) x1) (val_main_v3 (F := Ideal) x1)) (rows64 (recipDeg x1))
      = Host.divf (F := Ideal) (agg2 h (val_main_v1 (F := Ideal) x1) (val_main_v3 (F := Ideal) x1)) (val_main_v53 (F := Ideal) x1) := by
  show mulf (agg2 h (val_main_v1 (F := Ideal) x1) (val_main_v3 (F := Ideal) x1)) (rows64 (Host.divf (F := Ideal) ones (maximumf (val_main_v17 (F := Ideal) x1) ones)))
    = Host.divf (F := Ideal) (agg2 h (val_main_v1 (F := Ideal) x1) (val_main_v3 (F := Ideal) x1)) (rows64 (maximumf (val_main_v17 (F := Ideal) x1) ones))
  exact scale64 _ _

/-- THE BRIDGE: the kernel program's expression of the arguments is the reference's. -/
theorem kernel_expr_eq_reference :
    lookup
      (Cert.Sage.layer2
        (mulf (agg2 (Cert.Sage.layer1 (mulf (agg1 x0 x1) (rows128 (recipDeg x1))) x0 x4 x5 (biasRow64 x6) x3)
            (val_main_v1 (F := Ideal) x1) (val_main_v3 (F := Ideal) x1)) (rows64 (recipDeg x1)))
        (Cert.Sage.layer1 (mulf (agg1 x0 x1) (rows128 (recipDeg x1))) x0 x4 x5 (biasRow64 x6) x3)
        x7 x8 (biasRow8 x9)) x2
      = val_main_v67 (F := Ideal) x0 x1 x2 x3 x4 x5 x6 x7 x8 x9 := by
  rw [mean1_eq, biasRow64_eq, ← Cert.ReferenceIdeal.Layers.layer1_eq x0 x1 x3 x4 x5 x6, mean2_eq, biasRow8_eq]
  show lookup (Cert.Sage.layer2 (val_main_v54 (F := Ideal) x0 x1 x3 x4 x5 x6) (val_main_v35 (F := Ideal) x0 x1 x3 x4 x5 x6) x7 x8 (val_main_v58 (F := Ideal) x9)) x2 = _
  rw [← Cert.ReferenceIdeal.Layers.layer2_eq x0 x1 x3 x4 x5 x6 x7 x8 x9]
  rfl

end Cert.Bridge

end
-- ==== Proof.lean ====
/-
  The certificate of a two-layer mean-aggregation graph network against its reference.

  The kernel program computes, for each node, the mean of its in-neighbours' features (a gather over the
  edge list, a scatter-add into the destination rows and a row scale by `1 / max(deg, 1)`), runs the dense
  layer `mean · W_l + x · W_r + b` with clamp at zero, keep mask and factor two on a grid of row blocks,
  repeats the aggregation and a second dense layer on the hidden rows, and finally looks rows up by an index
  list. The reference does the same on the host, dividing by `max(deg, 1)` where the kernel program
  multiplies by its reciprocal.

  At the extended reals the two results are equal entry by entry, with no use of the finiteness of the
  inputs: the row blocks tile the rows, so each grid leaves the whole layer in its output array; a matrix
  product is a plain sum whatever its tiling or operand format; and `a · (1 / d) = a / d` for every extended
  real `a` once `d = max(deg, 1) ≥ 1` is not zero. The three frame claims are the imported frame runs, and
  the idealization rewrote nothing, so that claim is trivial.
-/
import proofs.«148262_j69277822484549_1_alg».proof.Defs
import proofs.«148262_j69277822484549_1_alg».proof.Proof.Gen.Kernel
import proofs.«148262_j69277822484549_1_alg».proof.Proof.Gen.Kernel.Frame
import proofs.«148262_j69277822484549_1_alg».proof.Proof.Gen.KernelIdeal
import proofs.«148262_j69277822484549_1_alg».proof.Proof.Gen.KernelIdeal.Frame
import proofs.«148262_j69277822484549_1_alg».proof.Proof.Gen.ReferenceIdeal
import proofs.«148262_j69277822484549_1_alg».proof.Proof.Gen.ReferenceIdeal.Run
import proofs.«148262_j69277822484549_1_alg».proof.Proof.Gen.ReferenceIdeal.Read
import proofs.«148262_j69277822484549_1_alg».proof.Proof.Gen.Pre_finite_inputs
import proofs.«148262_j69277822484549_1_alg».proof.Proof.KernelRun
import proofs.«148262_j69277822484549_1_alg».proof.Proof.KernelValue
import proofs.«148262_j69277822484549_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel
    program's at its expression of the arguments, the reference's at its own, and the two expressions are one
    function. -/
theorem algebraic : Cert.algebraic_KernelIdeal_ReferenceIdeal := by
  intro m ρ m' ρ' _ hagree
  refine ⟨fun c => Cert.KernelIdeal.Gen.W5 m ρ c (Proc.devRef .tc Cert.KernelIdeal.main_v48),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact ((Cert.Bridge.result_eq m ρ c).trans (Cert.Bridge.kernel_expr_eq_reference
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)))).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
